-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S8x256x256 : Shape := ⟨3, ![8, 256, 256]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S2048x16384 .f32) (main_arg1 : FVec F S8x256x256 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  main_v8
-- ==== Kernel.lean ====
abbrev S2048x16384 : Shape := ⟨2, ![2048, 16384]⟩
abbrev S8x256x256 : Shape := ⟨3, ![8, 256, 256]⟩
abbrev S256x4096 : Shape := ⟨2, ![256, 4096]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x16384, .f32⟩
  | .hbm, ⟨1, _⟩ => ⟨S8x256x256, .f32⟩
  | .hbm, ⟨2, _⟩ => ⟨S2048x16384, .f32⟩
  | .local _ .vmem, ⟨0, _⟩ => ⟨S256x4096, .f32⟩
  | .local _ .vmem, ⟨1, _⟩ => ⟨S256x4096, .f32⟩
  | .local _ .vmem, ⟨2, _⟩ => ⟨S1x256x256, .f32⟩
  | .local _ .vmem, ⟨3, _⟩ => ⟨S1x256x256, .f32⟩
  | .local _ .vmem, ⟨4, _⟩ => ⟨S256x4096, .f32⟩
  | .local _ .vmem, ⟨5, _⟩ => ⟨S256x4096, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x16384.size a
  hwx0_0 : ∀ i : grid0.Coords, EltTy.bits .f32 = 32 ∨ (Rect.block (s := S2048x16384) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x16384.size a
  hwx0_2 : ∀ i : grid0.Coords, EltTy.bits .f32 = 32 ∨ (Rect.block (s := S2048x16384) S256x4096.size (cc0_transform_2 i) (hinb0_2 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x16384 : Shape := ⟨2, ![2048, 16384]⟩
abbrev S8x256x256 : Shape := ⟨3, ![8, 256, 256]⟩
abbrev S8x256x16384 : Shape := ⟨3, ![8, 256, 16384]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S8x256x256, .f32⟩
  | .hbm, ⟨2, _⟩ => ⟨S8x256x16384, .f32⟩
  | .hbm, ⟨3, _⟩ => ⟨S8x256x16384, .f32⟩
  | .hbm, ⟨4, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2048x16384_S8x256x16384 : S2048x16384.ShapeCasts S8x256x16384
  shapeCasts_S8x256x16384_S2048x16384 : S8x256x16384.ShapeCasts S2048x16384
  dot_S8x256x256_S8x256x16384_S8x256x16384_2_1_1_2_0_0_wf : DotDims.WF S8x256x256 S8x256x16384 S8x256x16384 [2] [1] [1] [2] [0] [0]

variable [Facts₀]

def dot_S8x256x256_S8x256x16384_S8x256x16384_2_1_1_2_0_0 : DotDims S8x256x256 S8x256x16384 S8x256x16384 where
  lhsContracting := [2]
  rhsContracting := [1]
  lhsNonContracting := [1]
  rhsNonContracting := [2]
  lhsBatch := [0]
  rhsBatch := [0]
  wf := dot_S8x256x256_S8x256x16384_S8x256x16384_2_1_1_2_0_0_wf

class Facts : Prop extends Facts₀ where

variable [Facts]
-- ==== Proof.BlockDiagSpec.lean ====
/-
  The block-diagonal product as one function of the two argument arrays.

  The input x is a 2048 × 16384 array, read as eight horizontal bands of 256 rows; the weights w are eight
  256 × 256 matrices. Row r of the result lies in band r / 256, at row r % 256 of that band, and

      out (r, b) = ∑ k < 256, w (r / 256, r % 256, k) · x ((r / 256) · 256 + k, b)

  — band n of the result is the matrix w n times band n of x. Both programs compute this function on the
  extended reals; they differ only in how they tile it and in the order of the 256 summands, and a finite sum
  on the extended reals does not depend on that order, so no finiteness of the inputs is needed.
-/
import Idealize.ShloMosaic.PureOps.Ideal
import Idealize.ShloMosaic.Lib.ValueIdx

noncomputable section

open scoped BigOperators

namespace Cert.BlockDiag

open Idealize.ShloMosaic Idealize.ShloMosaic.ValueIdx

/-- The weight entry that meets summand k of output row i 0: matrix (i 0) / 256, row (i 0) % 256, column k. -/
abbrev wIdx (i : (⟨2, ![2048, 16384]⟩ : Shape).Idx) (k : Fin 256) : (⟨3, ![8, 256, 256]⟩ : Shape).Idx :=
  ix3 (⟨(i 0).val / 256, by have h := idx2_lt0 i; omega⟩ : Fin 8)
    (⟨(i 0).val % 256, Nat.mod_lt _ (by decide)⟩ : Fin 256) k

/-- The input entry that meets it: row k of the same band, the output's own column. -/
abbrev xIdx (i : (⟨2, ![2048, 16384]⟩ : Shape).Idx) (k : Fin 256) : (⟨2, ![2048, 16384]⟩ : Shape).Idx :=
  ix2 (⟨(i 0).val / 256 * 256 + k.val, by have h := idx2_lt0 i; have hk := k.isLt; omega⟩ : Fin 2048) (i 1)

/-- The block-diagonal product, index by index. -/
def blockDiagMul (x : (⟨2, ![2048, 16384]⟩ : Shape).Idx → EReal) (w : (⟨3, ![8, 256, 256]⟩ : Shape).Idx → EReal) :
    (⟨2, ![2048, 16384]⟩ : Shape).Idx → EReal :=
  fun i => ∑ k : Fin 256, w (wIdx i k) * x (xIdx i k)

end Cert.BlockDiag

end
-- ==== Proof.ReferenceSide.lean ====
/-
  The reference is the block-diagonal product.

  The reference reshapes x to [8, 256, 16384], contracts the weights' last axis with the middle axis of that
  (batched over the first), and reshapes the result back to [2048, 16384]. Read at (r, b): the last reshape reads
  the batched product at (r / 256, r % 256, b); the product there is the sum over k of w (r / 256, r % 256, k) times
  the reshaped x at (r / 256, k, b); and the first reshape reads x at ((r / 256) · 256 + k, b). These are the
  specification's summands, one by one.
-/
import proofs.«156514_j18124761989427_1_alg».proof.Proof.Gen.ReferenceIdeal.Read
import proofs.«156514_j18124761989427_1_alg».proof.Proof.BlockDiagSpec

noncomputable section

open scoped BigOperators

namespace Cert.BlockDiag

open Idealize.ShloMosaic Idealize.ShloMosaic.ValueIdx Cert.ReferenceIdeal Cert.ReferenceIdeal.Read

/-- Through the two reshapes, the weight the batched product meets at summand k is the specification's. -/
theorem ref_wIdx (i : S2048x16384.Idx) (k : Fin 256) : lidx_main_v1 (idx_main_v2 i) k = wIdx i k := by
  have h0 := idx2_lt0 i
  have h1 := idx2_lt1 i
  funext a; apply Fin.ext
  match a with
  | ⟨0, _⟩ => show ((i 0).val * 16384 + (i 1).val) / 4194304 = (i 0).val / 256; omega
  | ⟨1, _⟩ => show ((i 0).val * 16384 + (i 1).val) / 16384 % 256 = (i 0).val % 256; omega
  | ⟨2, _⟩ => rfl

/-- And the input entry it meets, read back through the first reshape, is the specification's. -/
theorem ref_xIdx (i : S2048x16384.Idx) (k : Fin 256) : idx_main_v0 (ridx_main_v1 (idx_main_v2 i) k) = xIdx i k := by
  have h0 := idx2_lt0 i
  have h1 := idx2_lt1 i
  have hk := k.isLt
  funext a; apply Fin.ext
  match a with
  | ⟨0, _⟩ =>
    show ((((i 0).val * 16384 + (i 1).val) / 4194304 * 256 + k.val) * 16384 + ((i 0).val * 16384 + (i 1).val) % 16384) / 16384
      = (i 0).val / 256 * 256 + k.val
    omega
  | ⟨1, _⟩ =>
    show ((((i 0).val * 16384 + (i 1).val) / 4194304 * 256 + k.val) * 16384 + ((i 0).val * 16384 + (i 1).val) % 16384) % 16384
      = (i 1).val
    omega

/-- The reference's result, as a function of its two arguments, is the block-diagonal product. -/
theorem reference_eq (x : (⟨S2048x16384, .f32⟩ : BufTy).Contents (Elt Ideal)) (w : (⟨S8x256x256, .f32⟩ : BufTy).Contents (Elt Ideal)) :
    val_main_v2 (F := Ideal) x w = blockDiagMul x w := by
  funext i
  rw [val_main_v2_apply, val_main_v1_apply]
  unfold blockDiagMul
  refine Finset.sum_congr rfl fun k _ => ?_
  rw [val_main_v0_apply, ref_wIdx, ref_xIdx]

end Cert.BlockDiag

end
-- ==== Proof.StoredValue.lean ====
/-
  The kernel body's stored value, read at one entry.

  At each grid point the body loads a 256 × 4096 block X of the input and one 256 × 256 weight matrix W (carried
  with a leading unit axis), narrows both to bf16 — which changes nothing on the extended reals —, and stores the
  matrix product W · X accumulated into zero. So entry (p, q) of what it stores is ∑ k < 256, W (0, p, k) · X (k, q).
-/
import proofs.«156514_j18124761989427_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.BlockDiag

open Idealize.ShloMosaic Idealize.ShloMosaic.ValueIdx Cert.KernelIdeal Cert.KernelIdeal.Gen

/-- Dropping the weights' leading unit axis: entry (p, k) of the matrix is entry (0, p, k) of the loaded block. -/
theorem weight_apply (W : S1x256x256.Idx → EReal) (h : S1x256x256.ShapeCasts S256x256) (p k : Fin 256) :
    shapeCast S256x256 W h (ix2 p k) = W (ix3 (0 : Fin 1) p k) :=
  shapeCast_apply W h (ix2 p k) (ix3 (0 : Fin 1) p k) (by
    rw [Shape.rowMajor_val_three, Shape.rowMajor_val_two]
    show (0 * 256 + p.val) * 256 + k.val = p.val * 256 + k.val
    omega)

/-- The left operand's row at output (p, q) is the output's row, whatever the summand. -/
theorem lhs_row (j : S256x4096.Idx) (κ : dot_S256x256_S256x4096_S256x4096_1_0_0_1_n_n.contr.Idx) :
    (dot_S256x256_S256x4096_S256x4096_1_0_0_1_n_n.lhsIdx j κ 0).val = (j 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl

/-- Its column is the summand. -/
theorem lhs_col (j : S256x4096.Idx) (κ : dot_S256x256_S256x4096_S256x4096_1_0_0_1_n_n.contr.Idx) :
    (dot_S256x256_S256x4096_S256x4096_1_0_0_1_n_n.lhsIdx j κ 1).val = (κ ⟨0, by decide⟩).val :=
  dot_S256x256_S256x4096_S256x4096_1_0_0_1_n_n.lhsIdx_val_of_single rfl j κ

/-- The right operand's row is the summand. -/
theorem rhs_row (j : S256x4096.Idx) (κ : dot_S256x256_S256x4096_S256x4096_1_0_0_1_n_n.contr.Idx) :
    (dot_S256x256_S256x4096_S256x4096_1_0_0_1_n_n.rhsIdx j κ 0).val = (κ ⟨0, by decide⟩).val :=
  dot_S256x256_S256x4096_S256x4096_1_0_0_1_n_n.rhsIdx_val_of_single rfl j κ

/-- Its column is the output's column. -/
theorem rhs_col (j : S256x4096.Idx) (κ : dot_S256x256_S256x4096_S256x4096_1_0_0_1_n_n.contr.Idx) :
    (dot_S256x256_S256x4096_S256x4096_1_0_0_1_n_n.rhsIdx j κ 1).val = (j 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-- The product's left index at output (p, q) and summand k is (p, k). -/
theorem lhs_at (p : Fin 256) (q : Fin 4096) (k : Fin 256) :
    dot_S256x256_S256x4096_S256x4096_1_0_0_1_n_n.lhsIdx (ix2 p q) ((contrEquiv1 dot_S256x256_S256x4096_S256x4096_1_0_0_1_n_n 256 rfl rfl).symm k) = ix2 p k := by
  have hk := contrEquiv1_symm_val dot_S256x256_S256x4096_S256x4096_1_0_0_1_n_n 256 rfl rfl k
  funext a; apply Fin.ext
  match a with
  | ⟨0, _⟩ => exact lhs_row _ _
  | ⟨1, _⟩ => exact (lhs_col _ _).trans hk

/-- The product's right index there is (k, q). -/
theorem rhs_at (p : Fin 256) (q : Fin 4096) (k : Fin 256) :
    dot_S256x256_S256x4096_S256x4096_1_0_0_1_n_n.rhsIdx (ix2 p q) ((contrEquiv1 dot_S256x256_S256x4096_S256x4096_1_0_0_1_n_n 256 rfl rfl).symm k) = ix2 k q := by
  have hk := contrEquiv1_symm_val dot_S256x256_S256x4096_S256x4096_1_0_0_1_n_n 256 rfl rfl k
  funext a; apply Fin.ext
  match a with
  | ⟨0, _⟩ => exact (rhs_row _ _).trans hk
  | ⟨1, _⟩ => exact rhs_col _ _

/-- Entry (p, q) of the stored value: the weight matrix's row p against the input block's column q. -/
theorem stored_apply (X : Vec Ideal S256x4096 .f32) (W : Vec Ideal S1x256x256 .f32) (p : Fin 256) (q : Fin 4096) :
    k0_pay1 (F := Ideal) X W (ix2 p q) = ∑ k : Fin 256, W (ix3 (0 : Fin 1) p k) * X (ix2 k q) := by
  unfold k0_pay1
  refine (Ideal.matmul_constant_zero_apply dot_S256x256_S256x4096_S256x4096_1_0_0_1_n_n none _ _ (ix2 p q)).trans ?_
  rw [← Equiv.sum_comp (contrEquiv1 dot_S256x256_S256x4096_S256x4096_1_0_0_1_n_n 256 rfl rfl).symm]
  refine Finset.sum_congr rfl fun k _ => ?_
  rw [lhs_at, rhs_at]
  exact congrArg (· * X (ix2 k q)) (weight_apply W _ p k)

end Cert.BlockDiag

end
-- ==== Proof.BlocksToArray.lean ====
/-
  From the blocks to the whole array.

  The grid has 8 × 4 points; point (n, b) stages band n of the input restricted to columns [4096 b, 4096 (b + 1)),
  the weight matrix n, and writes back the same band-and-column block of the result. What the body stores at entry
  (p, q) of that block is ∑ k, W (0, p, k) · X (k, q) with X, W the staged blocks, and read through the blocks'
  positions this is the block-diagonal product at (256 n + p, 4096 b + q): the row's band is n and its row inside
  the band is p, since p < 256. The 32 blocks cover the result array (the point covering (r, c) is (r / 256, c / 4096)),
  so after the run the result array is the block-diagonal product of the two argument arrays.
-/
import proofs.«156514_j18124761989427_1_alg».proof.Proof.Gen.KernelIdeal.Value
import proofs.«156514_j18124761989427_1_alg».proof.Proof.StoredValue
import proofs.«156514_j18124761989427_1_alg».proof.Proof.BlockDiagSpec

noncomputable section

open scoped BigOperators

namespace Cert.BlockDiag

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps over the grid: the input's block moves with the result's; the weights' block index is the
    result's band and nothing else; the result's block indices range over 8 bands and 4 column blocks. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 3) = win0_2.index t (0 : Fin 2)
    ∧ win0_1.index t (1 : Fin 3) = 0
    ∧ win0_1.index t (2 : Fin 3) = 0
    ∧ win0_2.index t (0 : Fin 2) ≤ 7
    ∧ win0_2.index t (1 : Fin 2) ≤ 3 :=
  (by decide +kernel : ∀ t : Fin grid0.N, _)

/-- Every band and column block is some point's. -/
theorem index_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What point t writes back is block t of the block-diagonal product of the argument arrays. -/
theorem flushed_eq (c : Dev nD) (t : Fin cfg0.N) :
    (dats m 0 c).flushed 2 t
      = ((cfg0.win 2).blk t).view.read (Elt Ideal) (blockDiagMul (V m c main_arg0) (V m c main_arg1)) := by
  rw [Cert.KernelIdeal.Value.flushed2]
  unfold out0_2
  rw [View.canon_unit_zero zero2]
  simp only [View.ld_unit_zero (S := S256x4096) zero2, View.ld_unit_zero (S := S1x256x256) zero3]
  obtain ⟨e0, e1, e2, e3, e4, e5, e6⟩ := index_facts t
  funext j
  obtain ⟨p, q, rfl⟩ : ∃ (p : Fin 256) (q : Fin 4096), j = ix2 p q := ⟨j 0, j 1, eq_ix2 j⟩
  show k0_pay1 (F := Ideal) (iblk m c 0 t) (iblk m c 1 t) (ix2 p q)
    = blockDiagMul (V m c main_arg0) (V m c main_arg1) (((cfg0.win 2).blk t).view.emb (ix2 p q))
  refine (stored_apply (iblk m c 0 t) (iblk m c 1 t) p q).trans ?_
  unfold blockDiagMul
  refine Finset.sum_congr rfl fun k _ => ?_
  have hp := p.isLt
  have hw : iblk m c 1 t (ix3 (0 : Fin 1) p k)
      = V m c main_arg1 (wIdx (((cfg0.win 2).blk t).view.emb (ix2 p q)) k) := by
    show V m c main_arg1 (((cfg0.win 1).blk t).view.emb (ix3 (0 : Fin 1) p k)) = _
    refine congrArg _ (funext fun a => Fin.ext ?_)
    match a with
    | ⟨0, _⟩ =>
      show win0_1.index t (0 : Fin 3) * 1 + 1 * 0 = (win0_2.index t (0 : Fin 2) * 256 + 1 * p.val) / 256
      omega
    | ⟨1, _⟩ =>
      show win0_1.index t (1 : Fin 3) * 256 + 1 * p.val = (win0_2.index t (0 : Fin 2) * 256 + 1 * p.val) % 256
      omega
    | ⟨2, _⟩ =>
      show win0_1.index t (2 : Fin 3) * 256 + 1 * k.val = k.val
      omega
  have hx : iblk m c 0 t (ix2 k q)
      = V m c main_arg0 (xIdx (((cfg0.win 2).blk t).view.emb (ix2 p q)) k) := by
    show V m c main_arg0 (((cfg0.win 0).blk t).view.emb (ix2 k q)) = _
    refine congrArg _ (funext fun a => Fin.ext ?_)
    match a with
    | ⟨0, _⟩ =>
      show win0_0.index t (0 : Fin 2) * 256 + 1 * k.val
        = (win0_2.index t (0 : Fin 2) * 256 + 1 * p.val) / 256 * 256 + k.val
      omega
    | ⟨1, _⟩ =>
      show win0_0.index t (1 : Fin 2) * 4096 + 1 * q.val = win0_2.index t (1 : Fin 2) * 4096 + 1 * q.val
      omega
  rw [hw, hx]

/-- An index of the result array is in point t's block iff each coordinate is in the block's range on its axis. -/
theorem mem_block (t : Fin cfg0.N) (i : S2048x16384.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v0).slice (win0_2.rect t)).set ↔ _
  rw [View.set_slice_whole, Rect.mem_set_unit]
  exact Iff.rfl

/-- Every index of the result array lies in some point's block: the point of its band and column block. -/
theorem covered (i : S2048x16384.Idx) :
    ∃ t : Fin cfg0.N, (cfg0.win 2).flush t = true ∧ i ∈ ((cfg0.win 2).blk t).view.set := by
  have hi0 := idx2_lt0 i
  have hi1 := idx2_lt1 i
  obtain ⟨t, ht⟩ := index_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 4096 ≤ (i 1).val ∧ (i 1).val < win0_2.index t (1 : Fin 2) * 4096 + 4096
    omega

/-- The result array after the run is the block-diagonal product of the argument arrays as launched. -/
theorem final (c : Dev nD) :
    (dats m 0 c).arrAt 2 cfg0.N
      = blockDiagMul (m ((c : Thread nD τ).loc main_arg0)) (m ((c : Thread nD τ).loc main_arg1)) :=
  (dats m 0 c).arrAt_eq_of_cover 2 (blockDiagMul (V m c main_arg0) (V m c main_arg1))
    (fun t _ => flushed_eq m c t) covered

/-- The kernel's run: it terminates with the result array at the block-diagonal product and the arguments unchanged. -/
theorem kernel_run : θ_run defs (onTc (τ := τ) (main (F := Ideal))) ⟨m, fun _ => 0, ρ⟩ fun r => ∀ c : Dev nD,
      r.2.mem ((c : Thread nD τ).loc main_v0)
        = blockDiagMul (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.BlockDiag

end
-- ==== Proof.lean ====
/-
  A block-diagonal matrix product: the result is block_diag (w 0, …, w 7) · x for eight 256 × 256 matrices w n and a
  2048 × 16384 array x, that is, band n of the result (rows 256 n … 256 n + 255) is w n times band n of x.

  The kernel computes it on an 8 × 4 grid: at point (n, b) it multiplies w n by the 256 × 4096 block of band n at
  column block b, narrowing both factors to bf16 first and accumulating in f32 into zero, and writes the product to
  the same block of the result. The reference reshapes x into its eight bands, takes the batched product with w,
  and reshapes back. On the extended reals a change of float format is the identity and a product is a sum over the
  256 contracted positions, so each side's entry (r, b) is ∑ k, w (r / 256, r % 256, k) · x ((r / 256) · 256 + k, b):
  the two programs are one function of their arguments, whatever the arguments are (no finiteness is used).

  The three frames: the kernel's two are the generated frame runs; the reference has no kernel, and its frame is its
  run with the result forgotten. The idealization rewrote no operation, so nothing is owed for it.
-/
import proofs.«156514_j18124761989427_1_alg».proof.Defs
import proofs.«156514_j18124761989427_1_alg».proof.Proof.Gen.Kernel
import proofs.«156514_j18124761989427_1_alg».proof.Proof.Gen.Kernel.Skeleton
import proofs.«156514_j18124761989427_1_alg».proof.Proof.Gen.Kernel.Launch
import proofs.«156514_j18124761989427_1_alg».proof.Proof.Gen.Kernel.Points
import proofs.«156514_j18124761989427_1_alg».proof.Proof.Gen.Kernel.Frame
import proofs.«156514_j18124761989427_1_alg».proof.Proof.Gen.KernelIdeal
import proofs.«156514_j18124761989427_1_alg».proof.Proof.Gen.KernelIdeal.Skeleton
import proofs.«156514_j18124761989427_1_alg».proof.Proof.Gen.KernelIdeal.Launch
import proofs.«156514_j18124761989427_1_alg».proof.Proof.Gen.KernelIdeal.Points
import proofs.«156514_j18124761989427_1_alg».proof.Proof.Gen.KernelIdeal.Frame
import proofs.«156514_j18124761989427_1_alg».proof.Proof.Gen.ReferenceIdeal
import proofs.«156514_j18124761989427_1_alg».proof.Proof.Gen.Pre_finite_inputs
import proofs.«156514_j18124761989427_1_alg».proof.Proof.Gen.KernelIdeal.Value
import proofs.«156514_j18124761989427_1_alg».proof.Proof.Gen.ReferenceIdeal.Run
import proofs.«156514_j18124761989427_1_alg».proof.Proof.Gen.ReferenceIdeal.Read
import proofs.«156514_j18124761989427_1_alg».proof.Proof.BlockDiagSpec
import proofs.«156514_j18124761989427_1_alg».proof.Proof.ReferenceSide
import proofs.«156514_j18124761989427_1_alg».proof.Proof.StoredValue
import proofs.«156514_j18124761989427_1_alg».proof.Proof.BlocksToArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and w both programs end with the block-diagonal product of x and w in their result
    arrays: the kernel block by block over its grid, the reference through its two reshapes and the batched product. -/
theorem algebraic : Cert.algebraic_KernelIdeal_ReferenceIdeal := by
  intro m ρ m' ρ' _ hagree
  refine ⟨fun c => Cert.BlockDiag.blockDiagMul (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.BlockDiag.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.BlockDiag.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
